-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x600000 32) (main_arg2 : FVec F S600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩

abbrev nBuf : Space → Nat
  | .hbm => 28
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x1, .f32⟩
  | .hbm, ⟨19, _⟩ => ⟨S600000x128, .f32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S128x128, .f32⟩
  | .hbm, ⟨26, _⟩ => ⟨S1x128, .f32⟩
  | .hbm, ⟨27, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x1, .f32⟩
  | .hbm, ⟨19, _⟩ => ⟨S600000x128, .f32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.AffineMap.lean ====
/-
  The function both programs compute on the scattered node features: the affine map of every row,
  `y[r, j] = Σ_k A[r, k] · W[j, k] + b[j]` — the rows of `A` against the rows of `W` (that is `A · Wᵀ`), plus
  the bias `b` on every row — stated entry by entry on the extended reals, over the literal extents
  (100000 rows of 128 features, a 128 × 128 weight matrix, a bias of 128 entries).
-/
import Idealize.ShloMosaic.PureOps.Ideal
import Idealize.ShloMosaic.Lib.ValueIdx

noncomputable section

open scoped BigOperators

namespace Cert.Affine

open Idealize.ShloMosaic Idealize.ShloMosaic.ValueIdx

/-- The node features: 100000 rows of 128 entries. -/
abbrev Rows : Shape := ⟨2, ![100000, 128]⟩
/-- The weight matrix, 128 × 128, row `j` holding output feature `j`'s coefficients. -/
abbrev Weights : Shape := ⟨2, ![128, 128]⟩
/-- The bias, one entry per output feature. -/
abbrev Bias : Shape := ⟨1, ![128]⟩

/-- Entry `(r, j)` of `A · Wᵀ + b`: row `r` of `A` against row `j` of `W`, summed over the 128 features, plus `b j`. -/
def entry (A : Rows.Idx → EReal) (W : Weights.Idx → EReal) (b : Bias.Idx → EReal) (r : Fin 100000) (j : Fin 128) : EReal :=
  (∑ k : Fin 128, A (ix2 r k) * W (ix2 j k)) + b (ix1 j)

/-- The whole array `A · Wᵀ + b`, index by index. -/
def affine (A : Rows.Idx → EReal) (W : Weights.Idx → EReal) (b : Bias.Idx → EReal) : Rows.Idx → EReal :=
  fun i => entry A W b (i 0) (i 1)

/-- At the index built from a row and a column it is that entry. -/
theorem affine_ix2 (A : Rows.Idx → EReal) (W : Weights.Idx → EReal) (b : Bias.Idx → EReal) (r : Fin 100000) (j : Fin 128) :
    affine A W b (ix2 r j) = entry A W b r j := rfl

end Cert.Affine

end
-- ==== Proof.RefAffine.lean ====
/-
  The reference's result, read index by index: its last three stages are a product of the scattered node
  features with the transposed weights (one contracted axis), the bias broadcast to every row, and their sum.
  At entry `(r, j)` the product reads row `r` of the features against column `j` of `Wᵀ`, which is row `j` of `W`,
  and the doubly broadcast bias reads `b j`: the entry of `A · Wᵀ + b`. The scattered features themselves (the gather,
  the scaling by the edge weights and the scatter-add) stay one unopened term.
-/
import proofs.«146347_j56160992362792_1_alg».proof.Proof.Gen.ReferenceIdeal.Read
import proofs.«146347_j56160992362792_1_alg».proof.Proof.AffineMap

noncomputable section

open scoped BigOperators

namespace Cert.ReferenceIdeal.RefValue

open Cert.ReferenceIdeal Cert.ReferenceIdeal.Read Idealize.ShloMosaic Idealize.ShloMosaic.ValueIdx Cert.Affine

/-- The product's left operand at output entry `(r, j)` and contraction index `k` is entry `(r, k)`. -/
theorem left_index (r : Fin 100000) (j k : Fin 128) : lidx_main_v18 (ix2 r j) k = ix2 r k :=
  funext fun a => Fin.ext (by match a with | ⟨0, _⟩ => rfl | ⟨1, _⟩ => rfl)

/-- Its right operand is the transposed weights at `(k, j)`: the weights at `(j, k)`. -/
theorem right_index (r : Fin 100000) (j k : Fin 128) : idx_main_v17 (ridx_main_v18 (ix2 r j) k) = ix2 j k :=
  funext fun a => Fin.ext (by match a with | ⟨0, _⟩ => rfl | ⟨1, _⟩ => rfl)

/-- The bias, made a row and then repeated on every row, reads at `(r, j)` its entry `j`. -/
theorem bias_index (r : Fin 100000) (j : Fin 128) : idx_main_v19 (idx_main_v20 (ix2 r j)) = ix1 j :=
  funext fun a => Fin.ext (by match a with | ⟨0, _⟩ => rfl)

/-- The reference's result is `A · Wᵀ + b` of the scattered features `A`, the weights and the bias. -/
theorem result_eq (x0 : (⟨S100000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 : (⟨S128, .f32⟩ : BufTy).Contents (Elt Ideal)) :
    val_main_v21 (F := Ideal) x0 x1 x2 x3 x4 = affine (val_main_v16 (F := Ideal) x0 x1 x2) x3 x4 := by
  funext i
  obtain ⟨r, j, rfl⟩ : ∃ (r : Fin 100000) (j : Fin 128), i = ix2 r j := ⟨i 0, i 1, eq_ix2 i⟩
  rw [val_main_v21_apply, val_main_v18_apply, val_main_v20_apply, val_main_v19_apply, affine_ix2]
  simp only [val_main_v17_apply, left_index, right_index, bias_index]
  rfl

end Cert.ReferenceIdeal.RefValue

end
-- ==== Proof.BlockAffine.lean ====
/-
  What one grid step computes on its block of 2000 rows: the block of node features times the staged matrix
  (a matrix product into a zero accumulator, so just the sum over the 128 contracted features; the roundings to
  a narrower format on the way in are the identity on extended reals), plus the staged bias row repeated on
  every row. Entry `(p, q)` of the stored block is `Σ_k X[p, k] · M[k, q] + v[0, q]`.
-/
import proofs.«146347_j56160992362792_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The product's left operand index keeps the output's row … -/
theorem left_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and takes the contraction index as its column. -/
theorem left_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand index takes the contraction index as its row … -/
theorem right_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- … and keeps the output's column. -/
theorem right_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into the zero accumulator, at entry `(p, q)`: the sum over the contracted feature
    `k` of the left operand at `(p, k)` times the right operand at `(k, q)`. -/
theorem product_entry {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := funext fun a => Fin.ext (by
    match a with
    | ⟨0, _⟩ => exact left_row _ _
    | ⟨1, _⟩ => exact (left_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q := funext fun a => Fin.ext (by
    match a with
    | ⟨0, _⟩ => exact (right_row _ _).trans hk
    | ⟨1, _⟩ => exact right_col _ _)
  rw [el, er]

/-- The stored block at entry `(p, q)`, from the three staged blocks: the features `X`, the matrix `M`, the bias row `v`. -/
theorem stored_entry (X : Vec Ideal S2000x128 .f32) (M : Vec Ideal S128x128 .f32) (v : Vec Ideal S1x128 .f32)
    (p : Fin 2000) (q : Fin 128) :
    k0_pay1 (F := Ideal) X M v (ix2 p q) = (∑ k : Fin 128, X (ix2 p k) * M (ix2 k q)) + v (ix2 (0 : Fin 1) q) := by
  unfold k0_pay1
  refine (congrArg₂ (· + ·) (product_entry _ _ p q) (broadcastTo_1b_ab_apply _ _ p q)).trans ?_
  simp only [shapeCast_self]
  rfl

end Cert.KernelIdeal.BlockValue

end
-- ==== Proof.EntryArrays.lean ====
/-
  What the grid finds in the two small operands it stages whole at every step: the matrix is the weights
  transposed, so its entry `(k, q)` is the weights' entry `(q, k)`; the bias row is the bias given a leading axis
  of extent one, so its entry `(0, q)` is the bias's entry `q`. Both are written by one host operation each
  before the grid starts, from argument arrays nothing else writes.
-/
import proofs.«146347_j56160992362792_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.EntryValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged matrix is the transpose of the weights as launched. -/
theorem matrix_eq (c : Dev nD) :
    (V m c main_v17 : S128x128.Idx → EReal)
      = transpose S128x128 [1, 0] (m ((c : Thread nD τ).loc main_arg3)) transposes_S128x128_S128x128_1_0 := by
  dsimp only [V, hostOps0]
  after_results <;> rfl

/-- Its entry `(k, q)` is the weights' entry `(q, k)`. -/
theorem matrix_entry (c : Dev nD) (k q : Fin 128) :
    (V m c main_v17 : S128x128.Idx → EReal) (ix2 k q) = m ((c : Thread nD τ).loc main_arg3) (ix2 q k) := by
  rw [matrix_eq]
  exact transpose_ix2_apply _ _ k q

/-- The staged bias row is the bias as launched, recast with a leading axis of extent one. -/
theorem bias_row_eq (c : Dev nD) :
    (V m c main_v18 : S1x128.Idx → EReal)
      = shapeCast S1x128 (m ((c : Thread nD τ).loc main_arg4)) shapeCasts_S128_S1x128 := by
  dsimp only [V, hostOps0]
  after_results <;> rfl

/-- Its entry `(0, q)` is the bias's entry `q`. -/
theorem bias_row_entry (c : Dev nD) (q : Fin 128) :
    (V m c main_v18 : S1x128.Idx → EReal) (ix2 (0 : Fin 1) q) = m ((c : Thread nD τ).loc main_arg4) (ix1 q) := by
  rw [bias_row_eq]
  exact shapeCast_a_1a_apply _ _ 0 q

end Cert.KernelIdeal.EntryValue

end
-- ==== Proof.ArrayAffine.lean ====
/-
  From the grid's blocks to the whole result. Step `t` of the 50 stages rows `2000·t … 2000·t + 1999` of the
  scattered node features, the whole transposed weights and the whole bias row, and writes back the same rows of
  the result. By the block's arithmetic, entry `(p, q)` of what step `t` writes is entry `(2000·t + p, q)` of
  `A · Wᵀ + b`; the 50 row blocks cover the 100000 rows (row `r` lies in block `r / 2000`), so after the run the
  result array is `A · Wᵀ + b` everywhere.
-/
import proofs.«146347_j56160992362792_1_alg».proof.Proof.Gen.KernelIdeal.Value
import proofs.«146347_j56160992362792_1_alg».proof.Proof.AffineMap
import proofs.«146347_j56160992362792_1_alg».proof.Proof.BlockAffine
import proofs.«146347_j56160992362792_1_alg».proof.Proof.EntryArrays

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Affine

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- Where each window's block sits at step `t`, decided over the 50 steps: the features' and the result's blocks are
    row block `t`; the matrix and the bias row are their one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry is one entry of `A · Wᵀ + b`, for any three staged blocks that hold: row `p` of the features
    block, row `R` of `A`; the matrix, `W` transposed; the bias row, `b`. -/
theorem stored_is_affine (X : Vec Ideal S2000x128 .f32) (M : Vec Ideal S128x128 .f32) (v : Vec Ideal S1x128 .f32)
    (A : Rows.Idx → EReal) (W : Weights.Idx → EReal) (b : Bias.Idx → EReal) (R : Fin 100000) (p : Fin 2000) (q : Fin 128)
    (hX : ∀ k : Fin 128, X (ix2 p k) = A (ix2 R k))
    (hM : ∀ k : Fin 128, M (ix2 k q) = W (ix2 q k))
    (hv : v (ix2 (0 : Fin 1) q) = b (ix1 q)) :
    k0_pay1 (F := Ideal) X M v (ix2 p q) = affine A W b (ix2 R q) := by
  rw [BlockValue.stored_entry, affine_ix2, hv]
  unfold entry
  exact congrArg (· + b (ix1 q)) (Finset.sum_congr rfl fun k _ => by rw [hX k, hM k])

/-- WHAT STEP `t` WRITES BACK is block `t` of `A · Wᵀ + b`, with `A` the scattered features as the grid finds them
    and `W`, `b` the weights and the bias as launched. -/
theorem flushed_affine (c : Dev nD) (t : Fin cfg0.N) :
    (dats m 0 c).flushed 3 t = ((cfg0.win 3).blk t).view.read (Elt Ideal)
      (affine (V m c main_v16) (m ((c : Thread nD τ).loc main_arg3)) (m ((c : Thread nD τ).loc main_arg4))) := by
  rw [Value.flushed3]
  unfold out0_3
  rw [View.canon_unit_zero origin]
  simp only [View.ld_unit_zero (S := S2000x128) origin, View.ld_unit_zero (S := S128x128) origin,
    View.ld_unit_zero (S := S1x128) origin]
  obtain ⟨e00, e01, e10, e11, e20, e21, e30, e31⟩ := block_positions t
  have ht : t.val < 50 := t.isLt
  funext y
  obtain ⟨p, q, rfl⟩ : ∃ (p : Fin 2000) (q : Fin 128), y = ix2 p q := ⟨y 0, y 1, eq_ix2 y⟩
  have hp : p.val < 2000 := p.isLt
  have hq : q.val < 128 := q.isLt
  have hout : ((cfg0.win 3).blk t).view.emb (ix2 p q) = ix2 (⟨t.val * 2000 + p.val, by omega⟩ : Fin 100000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show k0_pay1 (F := Ideal) (iblk m c 0 t) (iblk m c 1 t) (iblk m c 2 t) (ix2 p q)
    = affine (V m c main_v16) (m ((c : Thread nD τ).loc main_arg3)) (m ((c : Thread nD τ).loc main_arg4))
        (((cfg0.win 3).blk t).view.emb (ix2 p q))
  rw [hout]
  refine stored_is_affine (iblk m c 0 t) (iblk m c 1 t) (iblk m c 2 t) _ _ _ _ p q (fun k => ?_) (fun k => ?_) ?_
  · have hk : k.val < 128 := k.isLt
    show V m c main_v16 (((cfg0.win 0).blk t).view.emb (ix2 p k)) = V m c main_v16 (ix2 (⟨t.val * 2000 + p.val, by omega⟩ : Fin 100000) k)
    refine congrArg (V m c main_v16) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · have hk : k.val < 128 := k.isLt
    have hemb : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    show V m c main_v17 (((cfg0.win 1).blk t).view.emb (ix2 k q)) = m ((c : Thread nD τ).loc main_arg3) (ix2 q k)
    rw [hemb]
    exact EntryValue.matrix_entry m c k q
  · have hemb : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 128 + 1 * q.val = q.val; omega
    show V m c main_v18 (((cfg0.win 2).blk t).view.emb (ix2 (0 : Fin 1) q)) = m ((c : Thread nD τ).loc main_arg4) (ix1 q)
    rw [hemb]
    exact EntryValue.bias_row_entry m c q

/-- An index of the result array is in step `t`'s block iff each coordinate is in the block's range on its axis. -/
theorem mem_block (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v19).slice (win0_3.rect t)).set ↔ _
  rw [View.set_slice_whole, Rect.mem_set_unit]
  exact Iff.rfl

/-- The 50 row blocks cover the result: row `r` is in block `r / 2000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e30, e31⟩ := block_positions t
  have e30' : win0_3.index t (0 : Fin 2) = (i 0).val / 2000 := e30
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE RESULT ARRAY after the run is `A · Wᵀ + b`. -/
theorem final (c : Dev nD) :
    (dats m 0 c).arrAt 3 cfg0.N
      = affine (V m c main_v16) (m ((c : Thread nD τ).loc main_arg3)) (m ((c : Thread nD τ).loc main_arg4)) :=
  (dats m 0 c).arrAt_eq_of_cover 3 _ (fun t _ => flushed_affine m c t) covered

/-- The run, read: every weakly fair execution ends with the result at `A · Wᵀ + b` and the arguments as launched. -/
theorem run : θ_run defs (onTc (τ := τ) (main (F := Ideal))) ⟨m, fun _ => 0, ρ⟩ fun r => ∀ c : Dev nD,
      r.2.mem ((c : Thread nD τ).loc main_v19)
        = affine (V m c main_v16) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.SharedFeatures.lean ====
/-
  Both programs build the scattered node features the same way — the two rows of the edge list sliced out, the
  source indices wrapped into range, the source rows gathered and scaled by the edge weights, and the scaled rows
  added into their destination rows of a zero array — with the same operations on the same arguments. So the array
  the grid reads its row blocks from is the array the reference multiplies: one term, never opened.
-/
import proofs.«146347_j56160992362792_1_alg».proof.Proof.Gen.KernelIdeal.Frame
import proofs.«146347_j56160992362792_1_alg».proof.Proof.Gen.ReferenceIdeal.Read
import Idealize.ShloMosaic.Lib.StableHlo.Run

noncomputable section

namespace Cert.KernelIdeal.EntryValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The features the grid finds are the reference's scattered features of the same three arguments
    (the node features, the edge list, the edge weights). -/
theorem features_eq (c : Dev nD) :
    (V m c main_v16 : S100000x128.Idx → EReal)
      = Cert.ReferenceIdeal.Read.val_main_v16 (F := Ideal) (m ((c : Thread nD τ).loc main_arg0))
          (m ((c : Thread nD τ).loc main_arg1)) (m ((c : Thread nD τ).loc main_arg2)) := by
  dsimp only [V, hostOps0]
  after_results_simp <;> rfl

end Cert.KernelIdeal.EntryValue

end
-- ==== Proof.lean ====
/-
  The five claims of this certificate, for a graph layer `y = segment_sum(x[col] · w, row) · Wᵀ + b`.

  Both programs compute the scattered node features `A` (gather the source rows of `x`, scale each by its edge
  weight, add into the destination rows) with the same host operations. They differ only in the last, dense step:
  the kernel walks `A` in 50 blocks of 2000 rows and, per block, multiplies by the transposed weights (a matrix
  product into a zero accumulator, its operands narrowed on the way in — the identity on extended reals) and adds the
  bias row; the reference multiplies the whole of `A` by the transposed weights at once and adds the bias broadcast
  to every row. Entry by entry both are `Σ_k A[r, k] · W[j, k] + b[j]`: a tiling of the rows changes no entry,
  and `0 + s = s`. No law is used that fails at an infinity, so the precondition is never opened.

  The three frames are the generated ones (the reference's is its generated run with the result dropped); the ideal
  pass rewrote nothing, so the idealization claim is `True`.
-/
import proofs.«146347_j56160992362792_1_alg».proof.Defs
import proofs.«146347_j56160992362792_1_alg».proof.Proof.Gen.Kernel
import proofs.«146347_j56160992362792_1_alg».proof.Proof.Gen.Kernel.Frame
import proofs.«146347_j56160992362792_1_alg».proof.Proof.Gen.KernelIdeal
import proofs.«146347_j56160992362792_1_alg».proof.Proof.Gen.KernelIdeal.Frame
import proofs.«146347_j56160992362792_1_alg».proof.Proof.Gen.ReferenceIdeal
import proofs.«146347_j56160992362792_1_alg».proof.Proof.Gen.Pre_finite_inputs
import proofs.«146347_j56160992362792_1_alg».proof.Proof.Gen.KernelIdeal.Value
import proofs.«146347_j56160992362792_1_alg».proof.Proof.Gen.ReferenceIdeal.Run
import proofs.«146347_j56160992362792_1_alg».proof.Proof.Gen.ReferenceIdeal.Read
import proofs.«146347_j56160992362792_1_alg».proof.Proof.AffineMap
import proofs.«146347_j56160992362792_1_alg».proof.Proof.RefAffine
import proofs.«146347_j56160992362792_1_alg».proof.Proof.ArrayAffine
import proofs.«146347_j56160992362792_1_alg».proof.Proof.SharedFeatures
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both programs end with the result at `A · Wᵀ + b`, `A` the
    scattered features of the same node features, edge list and edge weights. -/
theorem algebraic : Cert.algebraic_KernelIdeal_ReferenceIdeal := by
  intro m ρ m' ρ' _ hagree
  refine ⟨fun c => Cert.Affine.affine (Cert.KernelIdeal.Gen.V m c Cert.KernelIdeal.main_v16)
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v21_eq, Cert.ReferenceIdeal.RefValue.result_eq, h0, h1, h2, h3, h4,
    ← Cert.KernelIdeal.EntryValue.features_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
